-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S16x2048 : S_.BroadcastsInDim S16x2048 (![] : Fin 0 → Fin S16x2048.rank)
  reducesTo_S16x2048_S_d0_1 : S16x2048.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_arg4 : FVec F S2048x16 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S2048x16 .f32 := Host.absf main_arg4
  let main_cst_6 : FVec F S_ .f32 := constant S_ .f32 0x7F800000#32
  let main_v20 : FVec F S2048x16 .f32 := broadcastInDim S2048x16 ![] bcast_S_S2048x16 main_cst_6
  let main_v21 : IVec S2048x16 1 := cmpf .olt main_v19 main_v20
  let main_c_7 : IVec S_ 1 := constantI S_ 1 1#1
  let main_v22 : IVec S_ 1 := (fun x v => Host.reduce IntOp.andi x v reducesTo_S2048x16_S_d0_1 h_S_) main_v21 main_c_7
  let main_v23 : IVec S_ 1 := andi main_v18 main_v22
  main_v23

def fn {F : FTy → Type} [FloatOps F] (main_arg0 : FVec F S4x4096x2048 .f32) (main_arg1 : FVec F S2048x2048 .f32) (main_arg2 : FVec F S2048 .f32) (main_arg3 : FVec F S16x2048 .f32) (main_arg4 : FVec F S2048x16 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩
abbrev S16384x2048 : Shape := ⟨2, ![16384, 2048]⟩
abbrev S1x2048 : Shape := ⟨2, ![1, 2048]⟩
abbrev S512x2048 : Shape := ⟨2, ![512, 2048]⟩

abbrev nBuf : Space → Nat
  | .hbm => 16
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S16384x2048, .f32⟩
  | .hbm, ⟨13, _⟩ => ⟨S1x2048, .f32⟩
  | .hbm, ⟨14, _⟩ => ⟨S16384x2048, .f32⟩
  | .hbm, ⟨15, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S2048x16_S16x2048_S2048x2048_1_0_0_1_n_n_wf : DotDims.WF S2048x16 S16x2048 S2048x2048 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v6) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S1x1x2048 : Shape := ⟨3, ![1, 1, 2048]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S4x4096x2048, .f32⟩
  | .hbm, ⟨6, _⟩ => ⟨S1x1x2048, .f32⟩
  | .hbm, ⟨7, _⟩ => ⟨S4x4096x2048, .f32⟩
  | .hbm, ⟨8, _⟩ => ⟨S4x4096x2048, .f32⟩
  | .hbm, ⟨9, _⟩ => ⟨S4x4096x16, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x2048 : S_.BroadcastsInDim S4x4096x2048 (![] : Fin 0 → Fin S4x4096x2048.rank)
  dot_S4x4096x2048_S2048x2048_S4x4096x2048_2_1_01_0_n_n_wf : DotDims.WF S4x4096x2048 S2048x2048 S4x4096x2048 [2] [1] [0, 1] [0] [] []
  dot_S4x4096x2048_S16x2048_S4x4096x16_2_1_01_0_n_n_wf : DotDims.WF S4x4096x2048 S16x2048 S4x4096x16 [2] [1] [0, 1] [0] [] []
  dot_S4x4096x16_S2048x16_S4x4096x2048_2_1_01_0_n_n_wf : DotDims.WF S4x4096x16 S2048x16 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf
def dot_S4x4096x2048_S16x2048_S4x4096x16_2_1_01_0_n_n : DotDims S4x4096x2048 S16x2048 S4x4096x16 where
  lhsContracting := [2]
  rhsContracting := [1]
  lhsNonContracting := [0, 1]
  rhsNonContracting := [0]
  lhsBatch := []
  rhsBatch := []
  wf := dot_S4x4096x2048_S16x2048_S4x4096x16_2_1_01_0_n_n_wf
def dot_S4x4096x16_S2048x16_S4x4096x2048_2_1_01_0_n_n : DotDims S4x4096x16 S2048x16 S4x4096x2048 where
  lhsContracting := [2]
  rhsContracting := [1]
  lhsNonContracting := [0, 1]
  rhsNonContracting := [0]
  lhsBatch := []
  rhsBatch := []
  wf := dot_S4x4096x16_S2048x16_S4x4096x2048_2_1_01_0_n_n_wf

class Facts : Prop extends Facts₀ where

variable [Facts]
-- ==== Proof.FoldedUpdate.lean ====
/-
  A linear layer with a rank-16 update, in two arrangements, and the law that joins them.

  For an input row x (2048 entries), a weight row w, a bias β, and the update's factors a (16 rows of 2048 entries) and
  b (16 entries), one arrangement applies the base layer and the update separately and adds the results,

      (∑ k, x k · w k + β) + (∑ r, (∑ k, x k · a r k) · b r) · 1,

  the other folds the update into the weight first and applies ONE layer,

      ∑ k, x k · (w k + 1 · ∑ r, b r · a r k) + β.

  Over the reals the two are equal by distributivity and an exchange of the two finite sums. On the extended reals
  distributivity fails at the infinities, so the law is stated for entries that are all real numbers.
-/
import Idealize.ShloMosaic.PureOps.Ideal
import Idealize.ShloMosaic.Lib.ValueIdx

noncomputable section

namespace Cert.FoldedUpdate

open Idealize.ShloMosaic Idealize.ShloMosaic.ValueIdx

/-! ## The law over the reals -/

/-- Folding the update into the weight: distributivity, then the two sums exchanged. -/
theorem fold_real {κ ρ : Type*} [Fintype κ] [Fintype ρ] (x w : κ → ℝ) (a : ρ → κ → ℝ) (b : ρ → ℝ) (β : ℝ) :
    (∑ k, x k * (w k + ∑ r, b r * a r k)) + β = ((∑ k, x k * w k) + β) + ∑ r, (∑ k, x k * a r k) * b r := by
  have h : ∀ k, x k * (w k + ∑ r, b r * a r k) = x k * w k + ∑ r, x k * a r k * b r := by
    intro k
    rw [mul_add, Finset.mul_sum]
    exact congrArg (x k * w k + ·) (Finset.sum_congr rfl fun r _ => by ring)
  simp only [h, Finset.sum_add_distrib, Finset.sum_mul]
  rw [Finset.sum_comm]
  ring

/-! ## The same on extended reals that are real numbers -/

/-- A finite sum of real numbers, read in the extended reals, is the sum of the readings. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- An extended real that is a real number. -/
def IsReal (z : EReal) : Prop := ∃ r : ℝ, z = (r : EReal)

/-- The law for extended reals that are all real numbers; the unit scale of the update drops out of both sides. -/
theorem fold_ereal {κ ρ : Type*} [Fintype κ] [Fintype ρ] (X W : κ → EReal) (A : ρ → κ → EReal) (B : ρ → EReal) (β : EReal)
    (hX : ∀ k, IsReal (X k)) (hW : ∀ k, IsReal (W k)) (hA : ∀ r k, IsReal (A r k)) (hB : ∀ r, IsReal (B r)) (hβ : IsReal β) :
    (∑ k, X k * (W k + 1 * ∑ r, B r * A r k)) + β = ((∑ k, X k * W k) + β) + (∑ r, (∑ k, X k * A r k) * B r) * 1 := by
  choose x hx using hX
  choose w hw using hW
  choose a ha using hA
  choose b hb using hB
  obtain ⟨β', rfl⟩ := hβ
  simp only [hx, hw, ha, hb, one_mul, mul_one]
  simp only [← EReal.coe_mul, ← coe_sum, ← EReal.coe_add]
  exact congrArg Real.toEReal (fold_real x w a b β')

/-! ## The two arrangements over the arrays -/

abbrev SX : Shape := ⟨3, ![4, 4096, 2048]⟩
abbrev SW : Shape := ⟨2, ![2048, 2048]⟩
abbrev Sb : Shape := ⟨1, ![2048]⟩
abbrev SA : Shape := ⟨2, ![16, 2048]⟩
abbrev SB : Shape := ⟨2, ![2048, 16]⟩

/-- The base layer and the update applied separately: entry (s, t, o) is row (s, t) of the input against row o of the
    weight, plus the bias at o, plus row (s, t) pushed through the update's two factors. -/
def separate (X : SX.Idx → EReal) (W : SW.Idx → EReal) (bias : Sb.Idx → EReal) (A : SA.Idx → EReal) (B : SB.Idx → EReal) :
    SX.Idx → EReal := fun i =>
  ((∑ k : Fin 2048, X (ix3 (i 0) (i 1) k) * W (ix2 (i 2) k)) + bias (ix1 (i 2)))
    + (∑ r : Fin 16, (∑ k : Fin 2048, X (ix3 (i 0) (i 1) k) * A (ix2 r k)) * B (ix2 (i 2) r)) * 1

/-- The update folded into the weight, then one layer. -/
def folded (X : SX.Idx → EReal) (W : SW.Idx → EReal) (bias : Sb.Idx → EReal) (A : SA.Idx → EReal) (B : SB.Idx → EReal) :
    SX.Idx → EReal := fun i =>
  (∑ k : Fin 2048, X (ix3 (i 0) (i 1) k) * (W (ix2 (i 2) k) + 1 * ∑ r : Fin 16, B (ix2 (i 2) r) * A (ix2 r k)))
    + bias (ix1 (i 2))

/-- On arrays of real numbers the two arrangements are one function. -/
theorem folded_eq_separate (X : SX.Idx → EReal) (W : SW.Idx → EReal) (bias : Sb.Idx → EReal) (A : SA.Idx → EReal) (B : SB.Idx → EReal)
    (hX : ∀ i, IsReal (X i)) (hW : ∀ i, IsReal (W i)) (hb : ∀ i, IsReal (bias i)) (hA : ∀ i, IsReal (A i)) (hB : ∀ i, IsReal (B i)) :
    folded X W bias A B = separate X W bias A B :=
  funext fun i =>
    fold_ereal (fun k => X (ix3 (i 0) (i 1) k)) (fun k => W (ix2 (i 2) k)) (fun r k => A (ix2 r k)) (fun r => B (ix2 (i 2) r))
      (bias (ix1 (i 2))) (fun _ => hX _) (fun _ => hW _) (fun _ _ => hA _) (fun _ => hB _) (hb _)

end Cert.FoldedUpdate

end
-- ==== Proof.FiniteInputs.lean ====
/-
  The precondition says every entry of the five argument arrays is a real number.

  It is the conjunction, array by array, of "every |x| is below +∞". On the extended reals |x| = max x (−x) is +∞ at both
  infinities and a real number elsewhere, so each conjunct says that array's entries are all real.
-/
import proofs.«135138_j31980326486354_2_alg».proof.Proof.Gen.Pre_finite_inputs
import proofs.«135138_j31980326486354_2_alg».proof.Proof.FoldedUpdate
import Idealize.ShloMosaic.Lib.ReduceAll
import Idealize.ShloMosaic.Lib.IdealHost
import Idealize.ShloMosaic.Lib.Affine
import Idealize.ShloMosaic.PureOps.Ideal.Laws

noncomputable section

namespace Cert.Pre_finite_inputs.Finite

open Cert.Pre_finite_inputs Cert.Pre_finite_inputs.Gen Idealize.ShloMosaic Idealize.ShloMosaic.ValueIdx Cert.FoldedUpdate

instance : Subsingleton S_.Idx := ⟨fun _ _ => funext fun d => d.elim0⟩

/-- The bound the precondition compares against is +∞. -/
theorem bound_eq_top : Ideal.ofBits .f32 0x7F800000#32 = (⊤ : EReal) := by
  simp [Ideal.ofBits, Ideal.ieee]

/-- An extended real whose absolute value is below +∞ is a real number. -/
theorem isReal_of_abs_lt (z : EReal) (h : Ideal.cmp .olt (max z (-z)) (Ideal.ofBits .f32 0x7F800000#32) = 1#1) : IsReal z := by
  rw [bound_eq_top] at h
  have hlt : max z (-z) < ⊤ := by
    by_contra hn
    simp [Ideal.cmp, hn] at h
  induction z using EReal.rec with
  | bot => simp at hlt
  | top => simp at hlt
  | coe r => exact ⟨r, rfl⟩

/-- One conjunct: an array all of whose |x| compare below the bound has only real entries. -/
theorem isReal_of_all {s : Shape} {axes : List (Fin s.rank)} (x : FVec Ideal s .f32) (hb : S_.BroadcastsInDim s ![])
    (hr : s.ReducesTo axes S_) (hu : 0 < S_.numel) (init : IVec S_ 1)
    (e : Host.reduce IntOp.andi (cmpf .olt (Host.absf x) (broadcastInDim s ![] hb (constant (F := Ideal) S_ .f32 0x7F800000#32)))
      init hr hu ix0 = 1#1) (i : s.Idx) : IsReal (x i) := by
  have h := Host.reduce_andi_all _ init hr hu ix0 e i
  rw [cmpf_apply, broadcastInDim_scalar_apply, constant_apply] at h
  exact isReal_of_abs_lt (x i) h

/-- The precondition, array by array. -/
theorem all_real (x0 : FVec Ideal S4x4096x2048 .f32) (x1 : FVec Ideal S2048x2048 .f32) (x2 : FVec Ideal S2048 .f32)
    (x3 : FVec Ideal S16x2048 .f32) (x4 : FVec Ideal S2048x16 .f32) (h : fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h0 := congrFun h ix0
  dsimp only [fn, fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨isReal_of_all x0 _ _ _ _ e0, isReal_of_all x1 _ _ _ _ e1, isReal_of_all x2 _ _ _ _ e2,
    isReal_of_all x3 _ _ _ _ e3, isReal_of_all x4 _ _ _ _ e4⟩

end Cert.Pre_finite_inputs.Finite

end
-- ==== Proof.ReferenceValue.lean ====
/-
  The reference computes the base layer and the rank-16 update separately and adds them: its result term, read index by
  index at the extended reals, is `FoldedUpdate.separate` of the five argument arrays.

  Entry (s, t, o): the first contraction pairs row (s, t) of the input with row o of the weight; the bias is broadcast
  along the last axis; the update contracts row (s, t) with each of the 16 rows of one factor, then the 16 results
  with row o of the other factor; the scale is the constant one.
-/
import proofs.«135138_j31980326486354_2_alg».proof.Proof.Gen.ReferenceIdeal.Read
import proofs.«135138_j31980326486354_2_alg».proof.Proof.FoldedUpdate
import Idealize.ShloMosaic.Lib.IdealHost

noncomputable section

namespace Cert.ReferenceIdeal.RefValue

open Cert.ReferenceIdeal Cert.ReferenceIdeal.Read Idealize.ShloMosaic Idealize.ShloMosaic.ValueIdx

/-! The composed index functions of the reference's operations are the coordinates' own. -/

theorem lhs_base (i : S4x4096x2048.Idx) (k : Fin 2048) : lidx_main_v0 i k = ix3 (i 0) (i 1) k :=
  funext fun a => Fin.ext (by match a with | ⟨0, _⟩ => rfl | ⟨1, _⟩ => rfl | ⟨2, _⟩ => rfl)

theorem rhs_base (i : S4x4096x2048.Idx) (k : Fin 2048) : ridx_main_v0 i k = ix2 (i 2) k :=
  funext fun a => Fin.ext (by match a with | ⟨0, _⟩ => rfl | ⟨1, _⟩ => rfl)

theorem bias_at (i : S4x4096x2048.Idx) : idx_main_v1 (idx_main_v2 i) = ix1 (i 2) :=
  funext fun a => Fin.ext (by match a with | ⟨0, _⟩ => rfl)

theorem lhs_down (i : S4x4096x2048.Idx) (r : Fin 16) (k : Fin 2048) : lidx_main_v4 (lidx_main_v5 i r) k = ix3 (i 0) (i 1) k :=
  funext fun a => Fin.ext (by match a with | ⟨0, _⟩ => rfl | ⟨1, _⟩ => rfl | ⟨2, _⟩ => rfl)

theorem rhs_down (i : S4x4096x2048.Idx) (r : Fin 16) (k : Fin 2048) : ridx_main_v4 (lidx_main_v5 i r) k = ix2 r k :=
  funext fun a => Fin.ext (by match a with | ⟨0, _⟩ => rfl | ⟨1, _⟩ => rfl)

theorem rhs_up (i : S4x4096x2048.Idx) (r : Fin 16) : ridx_main_v5 i r = ix2 (i 2) r :=
  funext fun a => Fin.ext (by match a with | ⟨0, _⟩ => rfl | ⟨1, _⟩ => rfl)

/-- The reference's result is the base layer and the update applied separately. -/
theorem result_eq (x0 : (⟨S4x4096x2048, .f32⟩ : BufTy).Contents (Elt Ideal)) (x1 : (⟨S2048x2048, .f32⟩ : BufTy).Contents (Elt Ideal))
    (x2 : (⟨S2048, .f32⟩ : BufTy).Contents (Elt Ideal)) (x3 : (⟨S16x2048, .f32⟩ : BufTy).Contents (Elt Ideal))
    (x4 : (⟨S2048x16, .f32⟩ : BufTy).Contents (Elt Ideal)) :
    val_main_v8 (F := Ideal) x0 x1 x2 x3 x4 = Cert.FoldedUpdate.separate x0 x1 x2 x3 x4 := by
  funext i
  rw [val_main_v8_apply, val_main_v3_apply, val_main_v0_apply, val_main_v2_apply, val_main_v1_apply, val_main_v7_apply,
    val_main_v5_apply, val_main_v6_apply, val_main_cst_apply]
  simp only [val_main_v4_apply, lhs_base, rhs_base, bias_at, lhs_down, rhs_down, rhs_up, Ideal.addf_def, Ideal.mulf_def,
    Ideal.ofBits_def, Ideal.ofBits_one_f32]
  rfl

end Cert.ReferenceIdeal.RefValue

end
-- ==== Proof.KernelBody.lean ====
/-
  What the kernel's body computes at one grid point, read at one entry of its output block.

  The body loads a block of 512 input rows, the whole (already transposed) weight and the bias row, and stores
  rows × weight + bias. At the extended reals the change of float format is the identity and the matrix unit's product
  into a zero accumulator is the plain sum over the contracted axis, so entry (p, q) of the stored block is

      ∑ k, rows (p, k) · weight (k, q) + bias (0, q).
-/
import proofs.«135138_j31980326486354_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! The block product's operand indices: the left operand is read at (row, k), the right at (k, column). -/

theorem lhs_row (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

theorem lhs_contr (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q

theorem rhs_contr (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q

theorem rhs_col (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- Entry (p, q) of the stored block: row p of the loaded rows against column q of the loaded weight, plus the bias at q. -/
theorem payload_apply (x0 : Vec Ideal S512x2048 .f32) (x3 : Vec Ideal S2048x2048 .bf16) (x6 : Vec Ideal S1x2048 .f32)
    (p : Fin 512) (q : Fin 2048) :
    k0_pay1 (F := Ideal) x0 x3 x6 (ix2 p q) = (∑ k : Fin 2048, x0 (ix2 p k) * x3 (ix2 k q)) + x6 (ix2 (0 : Fin 1) q) := by
  unfold k0_pay1
  rw [shapeCast_self, shapeCast_self, shapeCast_self, addf_apply, broadcastTo_1b_ab_apply]
  simp only [matmul]
  rw [Ideal.matmul_constant_zero_apply,
    ← Equiv.sum_comp (contrEquiv1 dot_S512x2048_S2048x2048_S512x2048_1_0_0_1_n_n 2048 rfl rfl).symm]
  refine congrArg (· + x6 (ix2 (0 : Fin 1) q)) (Finset.sum_congr rfl fun k _ => ?_)
  have hk := contrEquiv1_symm_val dot_S512x2048_S2048x2048_S512x2048_1_0_0_1_n_n 2048 rfl rfl k
  have el : dot_S512x2048_S2048x2048_S512x2048_1_0_0_1_n_n.lhsIdx (ix2 p q)
      ((contrEquiv1 dot_S512x2048_S2048x2048_S512x2048_1_0_0_1_n_n 2048 rfl rfl).symm k) = ix2 p k :=
    funext fun a => Fin.ext (by
      match a with
      | ⟨0, _⟩ => exact lhs_row _ _
      | ⟨1, _⟩ => exact (lhs_contr _ _).trans hk)
  have er : dot_S512x2048_S2048x2048_S512x2048_1_0_0_1_n_n.rhsIdx (ix2 p q)
      ((contrEquiv1 dot_S512x2048_S2048x2048_S512x2048_1_0_0_1_n_n 2048 rfl rfl).symm k) = ix2 k q :=
    funext fun a => Fin.ext (by
      match a with
      | ⟨0, _⟩ => exact (rhs_contr _ _).trans hk
      | ⟨1, _⟩ => exact rhs_col _ _)
  rw [el, er]
  rfl

end Cert.KernelIdeal.Body

end
-- ==== Proof.KernelHost.lean ====
/-
  The arrays the kernel's region is launched on, as the host lines before it leave them, and the host line after it.

  Before the region the host folds the rank-16 update into the weight — weight + 1 · (B · A), transposed so that the
  contracted axis comes first, its float format narrowed (the identity at the extended reals) —, lays the input's
  4 × 4096 rows out as one axis of 16384 rows, and gives the bias a leading unit axis. After the region it splits the
  16384 rows back into 4 × 4096. Each is read here at an index: row 4096 s + t of the flat layout is row (s, t).
-/
import proofs.«135138_j31980326486354_2_alg».proof.Proof.Gen.KernelIdeal.Frame
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The host lines as terms of the arguments -/

/-- The weight with the update folded in, transposed. -/
def foldedWeight (w : FVec F S2048x2048 .f32) (a : FVec F S16x2048 .f32) (b : FVec F S2048x16 .f32) : FVec F S2048x2048 .bf16 :=
  truncf .bf16 (transpose S2048x2048 [1, 0]
    (addf w (mulf (broadcastInDim S2048x2048 ![] bcast_S_S2048x2048 (constant (F := F) S_ .f32 0x3F800000#32))
      (Host.dotGeneral (F := F) dot_S2048x16_S16x2048_S2048x2048_1_0_0_1_n_n none b a)))
    transposes_S2048x2048_S2048x2048_1_0) bitsLt_bf16_f32

variable (m : (ℓ : Loc nD τ sig) → Buf (Elt F) ℓ)

/-- The region finds the folded, transposed weight in its second operand, -/
theorem V_weight (c : Dev nD) : V m c main_v5 = foldedWeight (m ((c : Thread nD τ).loc main_arg1))
    (m ((c : Thread nD τ).loc main_arg3)) (m ((c : Thread nD τ).loc main_arg4)) := by
  show StableHlo.after hostOps0 (fun b => m (c, b)) (Proc.devRef .tc main_v5) = _
  after_results
  rfl

/-- the input's rows on one axis in its first, -/
theorem V_rows (c : Dev nD) : V m c main_v6
    = shapeCast S16384x2048 (m ((c : Thread nD τ).loc main_arg0)) shapeCasts_S4x4096x2048_S16384x2048 := by
  show StableHlo.after hostOps0 (fun b => m (c, b)) (Proc.devRef .tc main_v6) = _
  after_results
  rfl

/-- and the bias as one row in its third. -/
theorem V_bias (c : Dev nD) : V m c main_v7
    = shapeCast S1x2048 (m ((c : Thread nD τ).loc main_arg2)) shapeCasts_S2048_S1x2048 := by
  show StableHlo.after hostOps0 (fun b => m (c, b)) (Proc.devRef .tc main_v7) = _
  after_results
  rfl

/-! ## Read at an index -/

/-- The update's product B · A: its left operand is read at (row, r), its right at (r, column). -/
theorem upd_lhs_row (j : S2048x2048.Idx) (q : dot_S2048x16_S16x2048_S2048x2048_1_0_0_1_n_n.contr.Idx) :
    (dot_S2048x16_S16x2048_S2048x2048_1_0_0_1_n_n.lhsIdx j q 0).val = (j 0).val := by
  unfold DotDims.lhsIdx
  rw [dif_neg (show ¬(0 : Fin S2048x16.rank) ∈ dot_S2048x16_S16x2048_S2048x2048_1_0_0_1_n_n.lhsBatch by decide),
    dif_pos (show (0 : Fin S2048x16.rank) ∈ dot_S2048x16_S16x2048_S2048x2048_1_0_0_1_n_n.lhsNonContracting by decide)]
  rfl

theorem upd_lhs_contr (j : S2048x2048.Idx) (q : dot_S2048x16_S16x2048_S2048x2048_1_0_0_1_n_n.contr.Idx) :
    (dot_S2048x16_S16x2048_S2048x2048_1_0_0_1_n_n.lhsIdx j q 1).val = (q ⟨0, by decide⟩).val :=
  dot_S2048x16_S16x2048_S2048x2048_1_0_0_1_n_n.lhsIdx_val_of_single rfl j q

theorem upd_rhs_contr (j : S2048x2048.Idx) (q : dot_S2048x16_S16x2048_S2048x2048_1_0_0_1_n_n.contr.Idx) :
    (dot_S2048x16_S16x2048_S2048x2048_1_0_0_1_n_n.rhsIdx j q 0).val = (q ⟨0, by decide⟩).val :=
  dot_S2048x16_S16x2048_S2048x2048_1_0_0_1_n_n.rhsIdx_val_of_single rfl j q

theorem upd_rhs_col (j : S2048x2048.Idx) (q : dot_S2048x16_S16x2048_S2048x2048_1_0_0_1_n_n.contr.Idx) :
    (dot_S2048x16_S16x2048_S2048x2048_1_0_0_1_n_n.rhsIdx j q 1).val = (j 1).val := by
  unfold DotDims.rhsIdx
  rw [dif_neg (show ¬(1 : Fin S16x2048.rank) ∈ dot_S2048x16_S16x2048_S2048x2048_1_0_0_1_n_n.rhsBatch by decide),
    dif_pos (show (1 : Fin S16x2048.rank) ∈ dot_S2048x16_S16x2048_S2048x2048_1_0_0_1_n_n.rhsNonContracting by decide)]
  rfl

/-- Entry (o, k) of B · A is the sum over the rank of B (o, r) · A (r, k). -/
theorem update_apply (a : FVec Ideal S16x2048 .f32) (b : FVec Ideal S2048x16 .f32) (o k : Fin 2048) :
    Host.dotGeneral (F := Ideal) dot_S2048x16_S16x2048_S2048x2048_1_0_0_1_n_n none b a (ix2 o k)
      = ∑ r : Fin 16, b (ix2 o r) * a (ix2 r k) := by
  simp only [Host.dotGeneral]
  rw [Ideal.dotGeneral_apply, ← Equiv.sum_comp (contrEquiv1 dot_S2048x16_S16x2048_S2048x2048_1_0_0_1_n_n 16 rfl rfl).symm]
  refine Finset.sum_congr rfl fun r _ => ?_
  have hr := contrEquiv1_symm_val dot_S2048x16_S16x2048_S2048x2048_1_0_0_1_n_n 16 rfl rfl r
  have el : dot_S2048x16_S16x2048_S2048x2048_1_0_0_1_n_n.lhsIdx (ix2 o k)
      ((contrEquiv1 dot_S2048x16_S16x2048_S2048x2048_1_0_0_1_n_n 16 rfl rfl).symm r) = ix2 o r :=
    funext fun ax => Fin.ext (by
      match ax with
      | ⟨0, _⟩ => exact upd_lhs_row _ _
      | ⟨1, _⟩ => exact (upd_lhs_contr _ _).trans hr)
  have er : dot_S2048x16_S16x2048_S2048x2048_1_0_0_1_n_n.rhsIdx (ix2 o k)
      ((contrEquiv1 dot_S2048x16_S16x2048_S2048x2048_1_0_0_1_n_n 16 rfl rfl).symm r) = ix2 r k :=
    funext fun ax => Fin.ext (by
      match ax with
      | ⟨0, _⟩ => exact (upd_rhs_contr _ _).trans hr
      | ⟨1, _⟩ => exact upd_rhs_col _ _)
  rw [el, er]

/-- Entry (k, o) of the folded, transposed weight: the weight at (o, k) plus one times the update at (o, k). -/
theorem foldedWeight_apply (w : FVec Ideal S2048x2048 .f32) (a : FVec Ideal S16x2048 .f32) (b : FVec Ideal S2048x16 .f32)
    (k o : Fin 2048) :
    foldedWeight (F := Ideal) w a b (ix2 k o) = w (ix2 o k) + 1 * ∑ r : Fin 16, b (ix2 o r) * a (ix2 r k) := by
  unfold foldedWeight
  rw [truncf_apply, transpose_ix2_apply, addf_apply, mulf_apply, broadcastInDim_scalar_apply, constant_apply,
    Ideal.ofBits_one_f32, update_apply]

/-- Row 4096 s + t of the flat layout of the input is its row (s, t). -/
theorem rows_apply {α : Type} (x : S4x4096x2048.Idx → α) (s : Fin 4) (t : Fin 4096) (k : Fin 2048) (r : Fin 16384)
    (hr : r.val = 4096 * s.val + t.val) :
    shapeCast S16384x2048 x shapeCasts_S4x4096x2048_S16384x2048 (ix2 r k) = x (ix3 s t k) :=
  shapeCast_apply x _ _ _ (by
    rw [Shape.rowMajor_val_three, Shape.rowMajor_val_two]
    show (s.val * 4096 + t.val) * 2048 + k.val = r.val * 2048 + k.val
    rw [hr]; ring)

/-- The bias row at column o is the bias at o. -/
theorem bias_apply {α : Type} (x : S2048.Idx → α) (u : Fin 1) (o : Fin 2048) :
    shapeCast S1x2048 x shapeCasts_S2048_S1x2048 (ix2 u o) = x (ix1 o) :=
  shapeCast_a_1a_apply x _ u o

/-- Splitting the rows back: row (s, t) of the result is row 4096 s + t of the region's output. -/
theorem split_apply {α : Type} (y : S16384x2048.Idx → α) (s : Fin 4) (t : Fin 4096) (o : Fin 2048) (r : Fin 16384)
    (hr : r.val = 4096 * s.val + t.val) :
    shapeCast S4x4096x2048 y shapeCasts_S16384x2048_S4x4096x2048 (ix3 s t o) = y (ix2 r o) :=
  shapeCast_apply y _ _ _ (by
    rw [Shape.rowMajor_val_three, Shape.rowMajor_val_two]
    show r.val * 2048 + o.val = (s.val * 4096 + t.val) * 2048 + o.val
    rw [hr]; ring)

end Cert.KernelIdeal.HostSide

end
-- ==== Proof.KernelValue.lean ====
/-
  The kernel's result array after the run, as one function of the five argument arrays.

  The region's grid has 32 points; point t is handed rows 512 t … 512 t + 511 of the flat input, the whole folded weight and
  the bias row, and writes back rows 512 t … 512 t + 511 of the flat output. Each written block is the matching rows of ONE
  array, rows × weight + bias; the 32 blocks tile the output, so after the region the output IS that array. The host line
  after the region splits its rows back into 4 × 4096, and with the host lines before the region read at an index the
  result at (s, t, o) is the folded layer: ∑ k, x (s, t, k) · (w (o, k) + 1 · ∑ r, B (o, r) · A (r, k)) + bias o.
-/
import proofs.«135138_j31980326486354_2_alg».proof.Proof.Gen.KernelIdeal.Frame
import proofs.«135138_j31980326486354_2_alg».proof.Proof.KernelBody
import proofs.«135138_j31980326486354_2_alg».proof.Proof.KernelHost
import proofs.«135138_j31980326486354_2_alg».proof.Proof.FoldedUpdate
import Idealize.ShloMosaic.Lib.Pipeline.Value
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- Rows times weight plus bias, over the whole flat output. -/
def product (rows : S16384x2048.Idx → EReal) (wt : S2048x2048.Idx → EReal) (bias : S1x2048.Idx → EReal) :
    S16384x2048.Idx → EReal := fun j =>
  (∑ k : Fin 2048, rows (ix2 (j 0) k) * wt (ix2 k (j 1))) + bias (ix2 (0 : Fin 1) (j 1))

/-! ## The blocks -/

/-- The index maps over the grid: the input and output row blocks move together, block t at point t; the weight and
    the bias stay at block (0, 0); no window moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's input block is rows 512 t … of the flat input. -/
theorem rows_block (c : Dev nD) (t : Fin cfg0.N) (x : S512x2048.Idx) (i : S16384x2048.Idx)
    (h0 : (i 0).val = 512 * t.val + (x 0).val) (h1 : (i 1).val = (x 1).val) :
    (iblk m c 0 t : Vec Ideal S512x2048 .f32) x = V m c main_v6 i := by
  obtain ⟨e0, e1, -⟩ := idx_facts t
  unfold iblk
  rw [View.read_apply]
  show V m c main_v6 _ = V m c main_v6 _
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 2048 + 1 * (x 1).val = (i 1).val; rw [e1, h1]; omega

/-- Every point's weight block is the whole weight. -/
theorem weight_block (c : Dev nD) (t : Fin cfg0.N) (x i : S2048x2048.Idx)
    (h0 : (i 0).val = (x 0).val) (h1 : (i 1).val = (x 1).val) :
    (iblk m c 1 t : Vec Ideal S2048x2048 .bf16) x = V m c main_v5 i := by
  obtain ⟨-, -, e0, e1, -⟩ := idx_facts t
  unfold iblk
  rw [View.read_apply]
  show V m c main_v5 _ = V m c main_v5 _
  congr 1
  funext a
  apply Fin.ext
  match a with
  | ⟨0, _⟩ => show win0_1.index t (0 : Fin 2) * 2048 + 1 * (x 0).val = (i 0).val; rw [e0, h0]; omega
  | ⟨1, _⟩ => show win0_1.index t (1 : Fin 2) * 2048 + 1 * (x 1).val = (i 1).val; rw [e1, h1]; omega

/-- Every point's bias block is the whole bias row. -/
theorem bias_block (c : Dev nD) (t : Fin cfg0.N) (x i : S1x2048.Idx)
    (h0 : (i 0).val = (x 0).val) (h1 : (i 1).val = (x 1).val) :
    (iblk m c 2 t : Vec Ideal S1x2048 .f32) x = V m c main_v7 i := by
  obtain ⟨-, -, -, -, e0, e1, -⟩ := idx_facts t
  unfold iblk
  rw [View.read_apply]
  show V m c main_v7 _ = V m c main_v7 _
  congr 1
  funext a
  apply Fin.ext
  match a with
  | ⟨0, _⟩ => show win0_2.index t (0 : Fin 2) * 1 + 1 * (x 0).val = (i 0).val; rw [e0, h0]; omega
  | ⟨1, _⟩ => show win0_2.index t (1 : Fin 2) * 2048 + 1 * (x 1).val = (i 1).val; rw [e1, h1]; omega

/-- Entry (p, q) of point t's output block sits at row 512 t + p, column q of the flat output. -/
theorem out_at (t : Fin cfg0.N) (p : Fin 512) (q : Fin 2048) :
    ((((cfg0.win 3).blk t).view.emb (ix2 p q)) 0).val = 512 * t.val + p.val
    ∧ ((((cfg0.win 3).blk t).view.emb (ix2 p q)) 1).val = q.val := by
  obtain ⟨-, -, -, -, -, -, e0, e1⟩ := idx_facts t
  constructor
  · show win0_3.index t (0 : Fin 2) * 512 + 1 * p.val = _; rw [e0]; omega
  · show win0_3.index t (1 : Fin 2) * 2048 + 1 * q.val = _; rw [e1]; omega

/-- What point t writes back is block t of rows × weight + bias of the arrays the region was launched on. -/
theorem flushed_eq (c : Dev nD) (t : Fin cfg0.N) :
    (dats m 0 c).flushed 3 t
      = ((cfg0.win 3).blk t).view.read (Elt Ideal) (product (V m c main_v6) (V m c main_v5) (V m c main_v7)) := by
  show (cfg0.win 3).cut (grid0.coords t) ((dats m 0 c).after 3 t) = _
  rw [after0_3]
  unfold out0_3
  rw [View.canon_unit_zero hz]
  simp only [View.ld_unit_zero (S := S512x2048) hz, View.ld_unit_zero (S := S2048x2048) hz, View.ld_unit_zero (S := S1x2048) hz]
  funext j
  obtain ⟨p, q, rfl⟩ : ∃ (p : Fin 512) (q : Fin 2048), j = ix2 p q := ⟨j 0, j 1, eq_ix2 j⟩
  obtain ⟨hr, hc⟩ := out_at t p q
  show k0_pay1 (F := Ideal) (iblk m c 0 t) (iblk m c 1 t) (iblk m c 2 t) (ix2 p q)
    = product (V m c main_v6) (V m c main_v5) (V m c main_v7) (((cfg0.win 3).blk t).view.emb (ix2 p q))
  refine (Cert.KernelIdeal.Body.payload_apply (iblk m c 0 t) (iblk m c 1 t) (iblk m c 2 t) p q).trans ?_
  unfold product
  refine congrArg₂ (· + ·) (Finset.sum_congr rfl fun k _ => congrArg₂ (· * ·) ?_ ?_) ?_
  · exact rows_block m c t (ix2 p k) _ hr rfl
  · exact weight_block m c t (ix2 k q) _ rfl hc
  · exact bias_block m c t (ix2 (0 : Fin 1) q) _ rfl hc

/-! ## The cover -/

/-- An index of the flat output is in point t's block iff each coordinate is in the block's range. -/
theorem mem_blk (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v8).slice (win0_3.rect t)).set ↔ _
  rw [View.set_slice_whole, Rect.mem_set_unit]
  exact Iff.rfl

/-- Row r of the flat output is written by point r / 512. -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-- The flat output after the region is rows × weight + bias. -/
theorem final (c : Dev nD) :
    (dats m 0 c).arrAt 3 cfg0.N = product (V m c main_v6) (V m c main_v5) (V m c main_v7) :=
  (dats m 0 c).arrAt_eq_of_cover 3 _ (fun t _ => flushed_eq m c t) cover

end Cert.KernelIdeal.Whole

end
-- ==== Proof.KernelRun.lean ====
/-
  The idealized kernel's run, read: every execution ends with the result array at the folded layer of the argument arrays,

      result (s, t, o) = ∑ k, x (s, t, k) · (w (o, k) + 1 · ∑ r, B (o, r) · A (r, k)) + bias o,

  and the arguments unchanged. The region leaves rows × weight + bias on the flat output; the host line after it splits
  the rows; the host lines before it are the flat input, the folded transposed weight and the bias row.
-/
import proofs.«135138_j31980326486354_2_alg».proof.Proof.KernelValue

noncomputable section

namespace Cert.KernelIdeal.Whole

open Cert.KernelIdeal Cert.KernelIdeal.Gen Cert.KernelIdeal.HostSide Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

/-- The host line after the region splits the rows of what the region left. -/
theorem tail_eq (c : Dev nD) :
    Pipeline.afterTail₀ cfgs (dats m) 0 (V0 m) [hostOps1] c main_v9
      = shapeCast S4x4096x2048 ((dats m 0 c).arrAt 3 cfg0.N) shapeCasts_S16384x2048_S4x4096x2048 := by
  unfold Pipeline.afterTail₀
  show StableHlo.after hostOps1 _ (Proc.devRef .tc main_v9) = _
  after_results
  exact congrArg (fun y => shapeCast S4x4096x2048 y shapeCasts_S16384x2048_S4x4096x2048)
    (Pipeline.withArrays_arr spec0 launch0.win.arr_inj c _ _ 3)

/-- Rows × weight + bias, its rows split, over the flat input, the folded transposed weight and the bias row: the folded
    layer, entry by entry. -/
theorem product_split (X : S4x4096x2048.Idx → EReal) (W : S2048x2048.Idx → EReal) (bias : S2048.Idx → EReal)
    (A : S16x2048.Idx → EReal) (B : S2048x16.Idx → EReal) :
    shapeCast S4x4096x2048
        (product (shapeCast S16384x2048 X shapeCasts_S4x4096x2048_S16384x2048) (foldedWeight (F := Ideal) W A B)
          (shapeCast S1x2048 bias shapeCasts_S2048_S1x2048))
        shapeCasts_S16384x2048_S4x4096x2048
      = Cert.FoldedUpdate.folded X W bias A B := by
  funext i
  obtain ⟨s, t, o, rfl⟩ : ∃ (s : Fin 4) (t : Fin 4096) (o : Fin 2048), i = ix3 s t o := ⟨i 0, i 1, i 2, eq_ix3 i⟩
  have hlt : 4096 * s.val + t.val < 16384 := by have := s.isLt; have := t.isLt; omega
  rw [split_apply _ s t o ⟨4096 * s.val + t.val, hlt⟩ rfl]
  unfold product Cert.FoldedUpdate.folded
  refine congrArg₂ (· + ·) (Finset.sum_congr rfl fun k _ => congrArg₂ (· * ·) ?_ ?_) ?_
  · exact rows_apply X s t k ⟨4096 * s.val + t.val, hlt⟩ rfl
  · exact foldedWeight_apply W A B k o
  · exact bias_apply bias (0 : Fin 1) o

/-- So the flat output the region leaves, its rows split, is the folded layer of the arguments. -/
theorem split_product (c : Dev nD) :
    shapeCast S4x4096x2048 (product (V m c main_v6) (V m c main_v5) (V m c main_v7)) shapeCasts_S16384x2048_S4x4096x2048
      = Cert.FoldedUpdate.folded (m ((c : Thread nD τ).loc main_arg0)) (m ((c : Thread nD τ).loc main_arg1))
          (m ((c : Thread nD τ).loc main_arg2)) (m ((c : Thread nD τ).loc main_arg3)) (m ((c : Thread nD τ).loc main_arg4)) := by
  rw [V_rows, V_weight, V_bias]
  exact product_split _ _ _ _ _

/-- The run of the idealized kernel, read. -/
theorem run : θ_run defs (onTc (τ := τ) (main (F := Ideal))) ⟨m, fun _ => 0, ρ⟩ fun r => ∀ c : Dev nD,
      r.2.mem ((c : Thread nD τ).loc main_v9)
        = Cert.FoldedUpdate.folded (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v9 (Pipeline.mem_restRefs_of main_v9 (by decide) (by decide))).trans
        ((tail_eq m c).trans (by rw [final m c]; exact split_product m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.lean ====
/-
  A linear layer with a rank-16 update: the kernel folds the update into the weight on the host,
  W' = W + 1 · (B · A), and computes x · W'ᵀ + bias in ONE blocked product; the reference computes the base layer
  x · Wᵀ + bias and the update (x · Aᵀ) · Bᵀ separately and adds them.

  At the extended reals both results are finite sums of products of the arguments' entries. Entry (s, t, o) of the kernel's is

      ∑ k, x (s, t, k) · (W (o, k) + 1 · ∑ r, B (o, r) · A (r, k)) + bias o           (Proof/KernelRun.lean),

  of the reference's

      (∑ k, x (s, t, k) · W (o, k) + bias o) + (∑ r, (∑ k, x (s, t, k) · A (r, k)) · B (o, r)) · 1    (Proof/ReferenceValue.lean).

  They are equal by distributivity and an exchange of the two sums (Proof/FoldedUpdate.lean). Distributivity fails at the
  infinities, so this is where the precondition is used: every entry of the five arguments is a real number
  (Proof/FiniteInputs.lean). The kernel's side is read off its frame run block by block (Proof/KernelValue.lean: 32 row
  blocks tile the flat output), its body's block product as a sum (Proof/KernelBody.lean), the host lines around the region
  at an index (Proof/KernelHost.lean). The idealization rewrote nothing, so the kernel's idealized program is its own text.
-/
import proofs.«135138_j31980326486354_2_alg».proof.Defs
import proofs.«135138_j31980326486354_2_alg».proof.Proof.Gen.Kernel
import proofs.«135138_j31980326486354_2_alg».proof.Proof.Gen.Kernel.Skeleton
import proofs.«135138_j31980326486354_2_alg».proof.Proof.Gen.Kernel.Launch
import proofs.«135138_j31980326486354_2_alg».proof.Proof.Gen.Kernel.Points
import proofs.«135138_j31980326486354_2_alg».proof.Proof.Gen.Kernel.Frame
import proofs.«135138_j31980326486354_2_alg».proof.Proof.Gen.KernelIdeal
import proofs.«135138_j31980326486354_2_alg».proof.Proof.Gen.KernelIdeal.Skeleton
import proofs.«135138_j31980326486354_2_alg».proof.Proof.Gen.KernelIdeal.Launch
import proofs.«135138_j31980326486354_2_alg».proof.Proof.Gen.KernelIdeal.Points
import proofs.«135138_j31980326486354_2_alg».proof.Proof.Gen.KernelIdeal.Frame
import proofs.«135138_j31980326486354_2_alg».proof.Proof.Gen.ReferenceIdeal
import proofs.«135138_j31980326486354_2_alg».proof.Proof.Gen.ReferenceIdeal.Run
import proofs.«135138_j31980326486354_2_alg».proof.Proof.Gen.ReferenceIdeal.Read
import proofs.«135138_j31980326486354_2_alg».proof.Proof.Gen.Pre_finite_inputs
import proofs.«135138_j31980326486354_2_alg».proof.Proof.FoldedUpdate
import proofs.«135138_j31980326486354_2_alg».proof.Proof.FiniteInputs
import proofs.«135138_j31980326486354_2_alg».proof.Proof.ReferenceValue
import proofs.«135138_j31980326486354_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, all of them real numbers, the kernel ends at the folded layer and the
    reference at the separate one, and on real numbers the two are one function. -/
theorem algebraic : Cert.algebraic_KernelIdeal_ReferenceIdeal := by
  intro m ρ m' ρ' hpre hagree
  refine ⟨fun c => Cert.FoldedUpdate.folded (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨r0, r1, r2, r3, r4⟩ := Cert.Pre_finite_inputs.Finite.all_real _ _ _ _ _ (hpre c)
  rw [a0, a1, a2, a3, a4, Cert.ReferenceIdeal.Read.val_main_v8_eq, Cert.ReferenceIdeal.RefValue.result_eq]
  exact (Cert.FoldedUpdate.folded_eq_separate _ _ _ _ _ r0 r1 r2 r3 r4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
